-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x28672 : Shape := ⟨2, ![8192, 28672]⟩
abbrev S28672 : Shape := ⟨1, ![28672]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x28672 : S_.BroadcastsInDim S8192x28672 (![] : Fin 0 → Fin S8192x28672.rank)
  reducesTo_S8192x28672_S_d0_1 : S8192x28672.ReducesTo [0, 1] S_
  bcast_S_S28672 : S_.BroadcastsInDim S28672 (![] : Fin 0 → Fin S28672.rank)
  reducesTo_S28672_S_d0 : S28672.ReducesTo [0] S_

variable [Facts]

def fn {F : FTy → Type} [FloatOps F] (main_arg0 : FVec F S1x8192 .f32) (main_arg1 : FVec F S8192x28672 .f32) (main_arg2 : FVec F S28672 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x28672 .f32 := Host.absf main_arg1
  let main_cst_0 : FVec F S_ .f32 := constant S_ .f32 0x7F800000#32
  let main_v5 : FVec F S8192x28672 .f32 := broadcastInDim S8192x28672 ![] bcast_S_S8192x28672 main_cst_0
  let main_v6 : IVec S8192x28672 1 := cmpf .olt main_v4 main_v5
  let main_c_1 : IVec S_ 1 := constantI S_ 1 1#1
  let main_v7 : IVec S_ 1 := (fun x v => Host.reduce IntOp.andi x v reducesTo_S8192x28672_S_d0_1 h_S_) main_v6 main_c_1
  let main_v8 : IVec S_ 1 := andi main_v3 main_v7
  let main_v9 : FVec F S28672 .f32 := Host.absf main_arg2
  let main_cst_2 : FVec F S_ .f32 := constant S_ .f32 0x7F800000#32
  let main_v10 : FVec F S28672 .f32 := broadcastInDim S28672 ![] bcast_S_S28672 main_cst_2
  let main_v11 : IVec S28672 1 := cmpf .olt main_v9 main_v10
  let main_c_3 : IVec S_ 1 := constantI S_ 1 1#1
  let main_v12 : IVec S_ 1 := (fun x v => Host.reduce IntOp.andi x v reducesTo_S28672_S_d0 h_S_) main_v11 main_c_3
  let main_v13 : IVec S_ 1 := andi main_v8 main_v12
  main_v13
-- ==== Kernel.lean ====
abbrev S1x8192 : Shape := ⟨2, ![1, 8192]⟩
abbrev S8192x28672 : Shape := ⟨2, ![8192, 28672]⟩
abbrev S28672 : Shape := ⟨1, ![28672]⟩
abbrev S1x28672 : Shape := ⟨2, ![1, 28672]⟩
abbrev S1x2048 : Shape := ⟨2, ![1, 2048]⟩
abbrev S2048x2048 : Shape := ⟨2, ![2048, 2048]⟩

abbrev nBuf : Space → Nat
  | .hbm => 5
  | .vmem => 9
  | .smem => 0
  | _ => 0

abbrev bufTy : (tb : Table) → Fin (tcTables nBuf tb) → BufTy
  | .hbm, ⟨0, _⟩ => ⟨S1x8192, .f32⟩
  | .hbm, ⟨1, _⟩ => ⟨S8192x28672, .f32⟩
  | .hbm, ⟨2, _⟩ => ⟨S28672, .f32⟩
  | .hbm, ⟨3, _⟩ => ⟨S1x28672, .f32⟩
  | .hbm, ⟨4, _⟩ => ⟨S1x28672, .f32⟩
  | .local _ .vmem, ⟨0, _⟩ => ⟨S1x2048, .f32⟩
  | .local _ .vmem, ⟨1, _⟩ => ⟨S1x2048, .f32⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S28672_S1x28672 : S28672.ShapeCasts S1x28672
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  dot_S1x2048_S2048x2048_S1x2048_1_0_0_1_n_n_wf : DotDims.WF S1x2048 S2048x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x8192.size a
  hwx0_0 : ∀ i : grid0.Coords, EltTy.bits .f32 = 32 ∨ (Rect.block (s := S1x8192) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x28672.size a
  hwx0_1 : ∀ i : grid0.Coords, EltTy.bits .f32 = 32 ∨ (Rect.block (s := S8192x28672) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x28672.size a
  hwx0_2 : ∀ i : grid0.Coords, EltTy.bits .f32 = 32 ∨ (Rect.block (s := S1x28672) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x28672.size a
  hwx0_3 : ∀ i : grid0.Coords, EltTy.bits .f32 = 32 ∨ (Rect.block (s := S1x28672) S1x2048.size (cc0_transform_3 i) (hinb0_3 i)).WholeWords (EltTy.packing .f32)

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf

abbrev win0_0 : Pipeline.Window sig grid0 :=
  Pipeline.Window.ofSpec (Memref.whole main_arg0) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x8192 : Shape := ⟨2, ![1, 8192]⟩
abbrev S8192x28672 : Shape := ⟨2, ![8192, 28672]⟩
abbrev S28672 : Shape := ⟨1, ![28672]⟩
abbrev S_ : Shape := ⟨0, ![]⟩
abbrev S1x28672 : Shape := ⟨2, ![1, 28672]⟩

abbrev nBuf : Space → Nat
  | .hbm => 23
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x28672, .f32⟩
  | .hbm, ⟨2, _⟩ => ⟨S28672, .f32⟩
  | .hbm, ⟨3, _⟩ => ⟨S_, .f32⟩
  | .hbm, ⟨4, _⟩ => ⟨S28672, .f32⟩
  | .hbm, ⟨5, _⟩ => ⟨S_, .f32⟩
  | .hbm, ⟨6, _⟩ => ⟨S28672, .f32⟩
  | .hbm, ⟨7, _⟩ => ⟨S28672, .f32⟩
  | .hbm, ⟨8, _⟩ => ⟨S28672, .f32⟩
  | .hbm, ⟨9, _⟩ => ⟨S_, .f32⟩
  | .hbm, ⟨10, _⟩ => ⟨S1x8192, .f32⟩
  | .hbm, ⟨11, _⟩ => ⟨S1x8192, .f32⟩
  | .hbm, ⟨12, _⟩ => ⟨S1x8192, .f32⟩
  | .hbm, ⟨13, _⟩ => ⟨S_, .f32⟩
  | .hbm, ⟨14, _⟩ => ⟨S1x8192, .f32⟩
  | .hbm, ⟨15, _⟩ => ⟨S1x8192, .i1⟩
  | .hbm, ⟨16, _⟩ => ⟨S_, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S1x28672, .f32⟩
  | .hbm, ⟨21, _⟩ => ⟨S1x28672, .f32⟩
  | .hbm, ⟨22, _⟩ => ⟨S1x28672, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S8192x28672_S28672_d0 : S8192x28672.ReducesTo [0] S28672
  h_S_ : 0 < S_.numel
  bcast_S_S28672 : S_.BroadcastsInDim S28672 (![] : Fin 0 → Fin S28672.rank)
  bcast_S_S1x8192 : S_.BroadcastsInDim S1x8192 (![] : Fin 0 → Fin S1x8192.rank)
  bcast_S28672_S1x28672_1 : S28672.BroadcastsInDim S1x28672 (![1] : Fin 1 → Fin S1x28672.rank)
  dot_S1x8192_S8192x28672_S1x28672_1_0_0_1_n_n_wf : DotDims.WF S1x8192 S8192x28672 S1x28672 [1] [0] [0] [1] [] []

variable [Facts₀]

def dot_S1x8192_S8192x28672_S1x28672_1_0_0_1_n_n : DotDims S1x8192 S8192x28672 S1x28672 where
  lhsContracting := [1]
  rhsContracting := [0]
  lhsNonContracting := [0]
  rhsNonContracting := [1]
  lhsBatch := []
  rhsBatch := []
  wf := dot_S1x8192_S8192x28672_S1x28672_1_0_0_1_n_n_wf

class Facts : Prop extends Facts₀ where

variable [Facts]
-- ==== Proof.Leaves.lean ====
/-
  What one grid point leaves behind, for any float instance.

  The grid is 14 column tiles by 4 reduction steps. A point's body holds a [1, 2048] accumulator that survives from one
  point to the next. At the first reduction step it overwrites the accumulator with zeros and then adds the step's
  partial product to it; at the two middle steps it adds the partial product to what the step before left; at the last
  step it does the same and then writes accumulator + bias block into the output block. Each of these is one pure
  term of the blocks the point loads:

    first step   : accumulator := partial (zeros)        (the zero store is read back by the step's own load)
    middle steps : accumulator := partial (previous)
    last step    : output      := (partial (previous)) + bias block

  where `partial acc = acc + x_eff · W_block` is the body's second payload and `· + bias` its third.
-/
import proofs.«114262_j79611513799417_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Leaves

open Cert.KernelIdeal Cert.KernelIdeal.Gen

variable {F : FTy → Type} [FloatOps F]

/-- The zero offset of a whole-block access, as a constant function. -/
theorem off0 : (![0, 0] : Fin 2 → Nat) = fun _ => 0 := funext fun a => by fin_cases a <;> rfl

/-- A middle reduction step leaves in the accumulator the partial product added to what the step before left. -/
theorem middle_acc (c : Dev nD) (i : grid0.Coords) (a2 : Memref sig .tc .vmem S1x2048 .f32) (h2 : a2.IsWhole)
    (a3 : Memref sig .tc .vmem S2048x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (hc0 : ¬cond0_0 i) (hc1 : ¬cond0_1 i) (x0 : Vec F S1x2048 .f32) (x1 : Vec F S2048x2048 .f32) (x2 : Vec F S1x2048 .f32)
    (xs0 : Vec F S1x2048 .f32) :
    sout0_B_0 c i a2 h2 a3 h3 a4 h4 a5 h5 a6 h6 hc0 hc1 x0 x1 x2 xs0 = k0_pay2 x0 xs0 x1 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero off0]
  simp only [View.readAt_eq_ld, h2.read_unread, h3.read_unread, h6.read_unread, View.ld_unit_zero (S := S1x2048) off0,
    View.ld_unit_zero (S := S2048x2048) off0]

/-- The first reduction step leaves the partial product added to the zero block it has just stored. -/
theorem first_acc (c : Dev nD) (i : grid0.Coords) (a2 : Memref sig .tc .vmem S1x2048 .f32) (h2 : a2.IsWhole)
    (a3 : Memref sig .tc .vmem S2048x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (hc0 : cond0_0 i) (hc1 : ¬cond0_1 i) (x0 : Vec F S1x2048 .f32) (x1 : Vec F S2048x2048 .f32) (x2 : Vec F S1x2048 .f32) :
    sout0_A_0 c i a2 h2 a3 h3 a4 h4 a5 h5 a6 h6 hc0 hc1 x0 x1 x2 = k0_pay2 x0 (k0_pay1 (F := F)) x1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x2048) off0, View.readCov_unit_zero (S := S1x2048) _ off0]
  simp only [View.readAt_eq_ld, h2.read_unread, h3.read_unread, View.ld_unit_zero (S := S1x2048) off0,
    View.ld_unit_zero (S := S2048x2048) off0]

/-- The last reduction step writes, into the output block, the bias block added to the finished accumulator. -/
theorem last_out (c : Dev nD) (i : grid0.Coords) (a2 : Memref sig .tc .vmem S1x2048 .f32) (h2 : a2.IsWhole)
    (a3 : Memref sig .tc .vmem S2048x2048 .f32) (h3 : a3.IsWhole) (a4 : Memref sig .tc .vmem S1x2048 .f32) (h4 : a4.IsWhole)
    (a5 : Memref sig .tc .vmem S1x2048 .f32) (h5 : a5.IsWhole) (a6 : Memref sig .tc .vmem S1x2048 .f32) (h6 : a6.IsWhole)
    (hc0 : ¬cond0_0 i) (hc1 : cond0_1 i) (x0 : Vec F S1x2048 .f32) (x1 : Vec F S2048x2048 .f32) (x2 : Vec F S1x2048 .f32)
    (xs0 : Vec F S1x2048 .f32) :
    out0_C_3 c i a2 h2 a3 h3 a4 h4 a5 h5 a6 h6 hc0 hc1 x0 x1 x2 xs0 = k0_pay3 (k0_pay2 x0 xs0 x1) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero off0, View.readCov_unit_zero (S := S1x2048) _ off0]
  simp only [View.readAt_eq_ld, h2.read_unread, h3.read_unread, h4.read_unread, h6.read_unread,
    View.ld_unit_zero (S := S1x2048) off0, View.ld_unit_zero (S := S2048x2048) off0]

end Cert.KernelIdeal.Leaves

end
-- ==== Proof.Payload.lean ====
/-
  The body's three pure terms read at one column, on the extended reals.

  Write μ for the real the mode word 0x3DB851EC denotes and θ for the one the threshold word 0x3DCCCCCD denotes. An entry
  x of the input row is KEPT when |x − μ| > θ and otherwise replaced by μ: eff x. For a [1, 2048] row block xs, a
  [2048, 2048] weight block W and an accumulator block acc, at column q:

      zero block           :  0
      partial acc          :  acc q + Σ_{k < 2048} eff (xs k) · W k q          (the matrix product into a zero accumulator is the plain sum)
      v + bias block       :  v q + b q

  The contraction index of the matrix product is its one coordinate k; the left operand is read at (0, k), the right at (k, q).
-/
import proofs.«114262_j79611513799417_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Payload

open Cert.KernelIdeal Cert.KernelIdeal.Gen Idealize.ShloMosaic.ValueIdx

/-- The mode value μ: what the word 0x3DB851EC denotes. -/
abbrev mode : EReal := Ideal.ofBits .f32 0x3DB851EC#32
/-- The threshold θ: what the word 0x3DCCCCCD denotes. -/
abbrev thr : EReal := Ideal.ofBits .f32 0x3DCCCCCD#32

/-- The bit "x is farther than θ from μ". -/
def farBit (x : EReal) : BitVec 1 :=
  FloatOps.cmpf (F := Ideal) (φ := .f32) .ogt (FloatOps.absf (F := Ideal) (φ := .f32) (FloatOps.subf (F := Ideal) (φ := .f32) x mode)) thr

/-- The entry the product uses: x itself when it is far from μ, otherwise μ. -/
def eff (x : EReal) : EReal := Scalar.select (farBit x) x mode

theorem eff_eq (x : EReal) : eff x = if farBit x = 1 then x else mode := rfl

/-- μ is a real number: its exponent field is neither all ones nor zero. -/
theorem mode_real : ∃ r : ℝ, mode = (r : EReal) := by
  unfold mode Ideal.ofBits Ideal.ieee
  dsimp only
  rw [if_neg (by decide), if_neg (by decide)]
  exact ⟨_, rfl⟩

/-- The zero word denotes 0. -/
theorem zero_block_apply (j : S1x2048.Idx) : k0_pay1 (F := Ideal) j = 0 := by
  unfold k0_pay1
  simp only [shapeCast_self]
  exact Ideal.ofBits_zero_f32

theorem lhs_row (i : S1x2048.Idx) (q : dot_S1x2048_S2048x2048_S1x2048_1_0_0_1_n_n.contr.Idx) : (dot_S1x2048_S2048x2048_S1x2048_1_0_0_1_n_n.lhsIdx i q 0).val = (i 0).val := by
  unfold DotDims.lhsIdx
  rw [dif_neg (show ¬(0 : Fin S1x2048.rank) ∈ dot_S1x2048_S2048x2048_S1x2048_1_0_0_1_n_n.lhsBatch by decide), dif_pos (show (0 : Fin S1x2048.rank) ∈ dot_S1x2048_S2048x2048_S1x2048_1_0_0_1_n_n.lhsNonContracting by decide)]
  rfl
theorem lhs_col (i : S1x2048.Idx) (q : dot_S1x2048_S2048x2048_S1x2048_1_0_0_1_n_n.contr.Idx) : (dot_S1x2048_S2048x2048_S1x2048_1_0_0_1_n_n.lhsIdx i q 1).val = (q ⟨0, by decide⟩).val :=
  dot_S1x2048_S2048x2048_S1x2048_1_0_0_1_n_n.lhsIdx_val_of_single rfl i q
theorem rhs_row (i : S1x2048.Idx) (q : dot_S1x2048_S2048x2048_S1x2048_1_0_0_1_n_n.contr.Idx) : (dot_S1x2048_S2048x2048_S1x2048_1_0_0_1_n_n.rhsIdx i q 0).val = (q ⟨0, by decide⟩).val :=
  dot_S1x2048_S2048x2048_S1x2048_1_0_0_1_n_n.rhsIdx_val_of_single rfl i q
theorem rhs_col (i : S1x2048.Idx) (q : dot_S1x2048_S2048x2048_S1x2048_1_0_0_1_n_n.contr.Idx) : (dot_S1x2048_S2048x2048_S1x2048_1_0_0_1_n_n.rhsIdx i q 1).val = (i 1).val := by
  unfold DotDims.rhsIdx
  rw [dif_neg (show ¬(1 : Fin S2048x2048.rank) ∈ dot_S1x2048_S2048x2048_S1x2048_1_0_0_1_n_n.rhsBatch by decide), dif_pos (show (1 : Fin S2048x2048.rank) ∈ dot_S1x2048_S2048x2048_S1x2048_1_0_0_1_n_n.rhsNonContracting by decide)]
  rfl

/-- One reduction step at column q: the accumulator's entry plus the step's 2048 products. -/
theorem partial_apply (xs acc : FVec Ideal S1x2048 .f32) (W : FVec Ideal S2048x2048 .f32) (q : Fin 2048) :
    k0_pay2 (F := Ideal) xs acc W (ix2 (0 : Fin 1) q)
      = acc (ix2 (0 : Fin 1) q) + ∑ k : Fin 2048, eff (xs (ix2 (0 : Fin 1) k)) * W (ix2 k q) := by
  unfold k0_pay2
  simp only [shapeCast_self]
  refine (addf_apply _ _ _).trans (congrArg (acc (ix2 (0 : Fin 1) q) + ·) ?_)
  refine (Ideal.matmul_constant_zero_apply dot_S1x2048_S2048x2048_S1x2048_1_0_0_1_n_n none _ W (ix2 (0 : Fin 1) q)).trans ?_
  rw [← Equiv.sum_comp (contrEquiv1 dot_S1x2048_S2048x2048_S1x2048_1_0_0_1_n_n 2048 rfl rfl).symm]
  refine Finset.sum_congr rfl fun k _ => ?_
  have hk := contrEquiv1_symm_val dot_S1x2048_S2048x2048_S1x2048_1_0_0_1_n_n 2048 rfl rfl k
  have el : dot_S1x2048_S2048x2048_S1x2048_1_0_0_1_n_n.lhsIdx (ix2 (0 : Fin 1) q) ((contrEquiv1 dot_S1x2048_S2048x2048_S1x2048_1_0_0_1_n_n 2048 rfl rfl).symm k) = ix2 (0 : Fin 1) k := funext fun a => Fin.ext (by
    match a with
    | ⟨0, _⟩ => exact lhs_row _ _
    | ⟨1, _⟩ => exact (lhs_col _ _).trans hk)
  have er : dot_S1x2048_S2048x2048_S1x2048_1_0_0_1_n_n.rhsIdx (ix2 (0 : Fin 1) q) ((contrEquiv1 dot_S1x2048_S2048x2048_S1x2048_1_0_0_1_n_n 2048 rfl rfl).symm k) = ix2 k q := funext fun a => Fin.ext (by
    match a with
    | ⟨0, _⟩ => exact (rhs_row _ _).trans hk
    | ⟨1, _⟩ => exact rhs_col _ _)
  rw [el, er]
  rfl

/-- The last step's output at column q: the finished accumulator's entry plus the bias entry. -/
theorem plus_bias_apply (v b : FVec Ideal S1x2048 .f32) (j : S1x2048.Idx) :
    k0_pay3 (F := Ideal) v b j = v j + b j := by
  unfold k0_pay3
  simp only [shapeCast_self]
  rfl

end Cert.KernelIdeal.Payload

end
-- ==== Proof.Blocks.lean ====
/-
  The windows' blocks as pieces of the argument arrays.

  Grid point t (of 56, row-major over 14 column tiles × 4 reduction steps) is column tile t / 4 at reduction step t mod 4.
  At that point the input row's block is columns 2048·(t mod 4) … of x, the weight block is rows 2048·(t mod 4) … and
  columns 2048·(t / 4) … of W, and the bias block is entries 2048·(t / 4) … of the bias vector (which the program first
  views as a [1, 28672] row: same row-major position). A block's coordinate is always block index × block size + the
  coordinate inside the block.
-/
import proofs.«114262_j79611513799417_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The four index maps at every grid point: row 0 always; the reduction step t mod 4 and the column tile t / 4. -/
theorem index_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The input row's block at point t, column k, is x at column 2048·(t mod 4) + k. -/
theorem x_block_apply (c : Dev nD) (t : Fin cfg0.N) (k : Fin 2048) (i : S1x8192.Idx)
    (h0 : (i 0).val = 0) (h1 : (i 1).val = 2048 * (t.val % 4) + k.val) :
    (iblk m c 0 t : Vec F S1x2048 .f32) (ix2 (0 : Fin 1) k) = m ((c : Thread nD τ).loc main_arg0) i := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 1 + 1 * (0 : Fin 1).val = (i 0).val; rw [e0, h0]; rfl
  | ⟨1, _⟩ => show win0_0.index t (1 : Fin 2) * 2048 + 1 * k.val = (i 1).val; rw [e1, h1]; omega

/-- The weight block at point t, entry (k, q), is W at row 2048·(t mod 4) + k and column 2048·(t / 4) + q. -/
theorem w_block_apply (c : Dev nD) (t : Fin cfg0.N) (k q : Fin 2048) (i : S8192x28672.Idx)
    (h0 : (i 0).val = 2048 * (t.val % 4) + k.val) (h1 : (i 1).val = 2048 * (t.val / 4) + q.val) :
    (iblk m c 1 t : Vec F S2048x2048 .f32) (ix2 k q) = m ((c : Thread nD τ).loc main_arg1) i := by
  obtain ⟨-, -, e0, e1, -⟩ := index_facts t
  unfold iblk
  rw [View.read_apply]
  show V m c main_arg1 _ = _
  rw [V_main_arg1]
  refine congrArg _ (funext fun a => Fin.ext ?_)
  match a with
  | ⟨0, _⟩ => show win0_1.index t (0 : Fin 2) * 2048 + 1 * k.val = (i 0).val; rw [e0, h0]; omega
  | ⟨1, _⟩ => show win0_1.index t (1 : Fin 2) * 2048 + 1 * q.val = (i 1).val; rw [e1, h1]; omega

/-- The [1, 28672] row the region finds in place of the bias: the bias vector viewed with a leading unit axis. -/
theorem bias_row (c : Dev nD) :
    (V m c main_v0 : S1x28672.Idx → Elt F .f32)
      = shapeCast S1x28672 (m ((c : Thread nD τ).loc main_arg2)) shapeCasts_S28672_S1x28672 := by
  dsimp only [V, hostOps0]
  after_results
  rfl

/-- The bias block at point t, column q, is the bias entry 2048·(t / 4) + q. -/
theorem b_block_apply (c : Dev nD) (t : Fin cfg0.N) (q : Fin 2048) (i : S28672.Idx)
    (h0 : (i 0).val = 2048 * (t.val / 4) + q.val) :
    (iblk m c 2 t : Vec F S1x2048 .f32) (ix2 (0 : Fin 1) q) = m ((c : Thread nD τ).loc main_arg2) i := by
  obtain ⟨-, -, -, -, e0, e1, -⟩ := index_facts t
  unfold iblk
  rw [View.read_apply]
  show V m c main_v0 _ = _
  rw [bias_row]
  refine shapeCast_apply _ _ _ i ?_
  rw [Shape.rowMajor_val_two, Shape.rowMajor_val_one]
  show (i 0).val = (win0_2.index t (0 : Fin 2) * 1 + 1 * (0 : Fin 1).val) * 28672 + (win0_2.index t (1 : Fin 2) * 2048 + 1 * q.val)
  rw [e0, e1, h0]
  show _ = (0 * 1 + 1 * 0) * 28672 + _
  omega

end Cert.KernelIdeal.Blocks

end
-- ==== Proof.Accum.lean ====
/-
  What the kernel's result array holds at the end, on the extended reals.

  Fix an output column n = 2048·T + q (column tile T, offset q). The four grid points 4T, 4T+1, 4T+2, 4T+3 are the
  tile's four reduction steps. The accumulator after them holds, at q,

      (((0 + P₀) + P₁) + P₂) + P₃,      Pₛ = Σ_{j < 2048} eff (x (2048·s + j)) · W (2048·s + j, n),

  the first step having started from the zero block, and the last step writes that plus the bias entry n into the output
  block, which is the only time the tile's block is written back. The points 4T + 3 (T < 14) write back blocks that tile the
  [1, 28672] result, so the whole array is this function of the three arguments.
-/
import proofs.«114262_j79611513799417_2_alg».proof.Proof.Gen.KernelIdeal.Value
import proofs.«114262_j79611513799417_2_alg».proof.Proof.Leaves
import proofs.«114262_j79611513799417_2_alg».proof.Proof.Payload
import proofs.«114262_j79611513799417_2_alg».proof.Proof.Blocks
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx
open Cert.KernelIdeal.Payload (eff)

/-! ## The specification -/

/-- Position 2048·s + j of the reduction axis: entry j of reduction step s. -/
def pos (s : Fin 4) (j : Fin 2048) : Fin 8192 := ⟨2048 * s.val + j.val, by have := s.isLt; have := j.isLt; omega⟩

/-- One product of the matrix–vector product at column n: the kept-or-replaced entry k of the row times W (k, n). -/
def term (x : S1x8192.Idx → EReal) (W : S8192x28672.Idx → EReal) (n : Fin 28672) (k : Fin 8192) : EReal :=
  eff (x (ix2 (0 : Fin 1) k)) * W (ix2 k n)

/-- Column n of the result: the four steps' sums added in step order from 0, then the bias entry. -/
def cell (x : S1x8192.Idx → EReal) (W : S8192x28672.Idx → EReal) (b : S28672.Idx → EReal) (n : Fin 28672) : EReal :=
  ((((0 + ∑ j : Fin 2048, term x W n (pos 0 j)) + ∑ j : Fin 2048, term x W n (pos 1 j))
      + ∑ j : Fin 2048, term x W n (pos 2 j)) + ∑ j : Fin 2048, term x W n (pos 3 j)) + b (ix1 n)

/-- The whole [1, 28672] result. -/
def result (x : S1x8192.Idx → EReal) (W : S8192x28672.Idx → EReal) (b : S28672.Idx → EReal) : S1x28672.Idx → EReal :=
  fun i => cell x W b ⟨(i 1).val, idx2_lt1 i⟩

variable (m : (ℓ : Loc nD τ sig) → Buf (Elt Ideal) ℓ) (ρ : Dev nD → PrngReg)

/-! ## One step of the accumulator -/

/-- At a first reduction step the accumulator is the step's partial product over the zero block. -/
theorem step_first (c : Dev nD) (n : ℕ) (hb : n < cfg0.N) (acc : Vec Ideal S1x2048 .f32) (h0 : n % 4 = 0) :
    Value.scAt0_0 m c n hb acc = k0_pay2 (iblk m c 0 ⟨n, hb⟩) (k0_pay1 (F := Ideal)) (iblk m c 1 ⟨n, hb⟩) := by
  unfold Value.scAt0_0
  rw [dif_pos h0, dif_neg (by omega)]
  exact Leaves.first_acc ..

/-- At a middle reduction step it is the step's partial product over what the step before left. -/
theorem step_middle (c : Dev nD) (n : ℕ) (hb : n < cfg0.N) (acc : Vec Ideal S1x2048 .f32) (h0 : ¬n % 4 = 0) (h3 : ¬n % 4 = 3) :
    Value.scAt0_0 m c n hb acc = k0_pay2 (iblk m c 0 ⟨n, hb⟩) acc (iblk m c 1 ⟨n, hb⟩) := by
  unfold Value.scAt0_0
  rw [dif_neg h0, dif_neg h3]
  exact Leaves.middle_acc ..

/-- Step s of column tile n / 4, read off the argument arrays: the step's 2048 products at column N = 2048·(n / 4) + q. -/
theorem step_sum (c : Dev nD) (n : ℕ) (hn : n < cfg0.N) (s : Fin 4) (hs : n % 4 = s.val) (q : Fin 2048) (N : Fin 28672)
    (hN : N.val = 2048 * (n / 4) + q.val) :
    ∑ k : Fin 2048, eff ((iblk m c 0 ⟨n, hn⟩ : Vec Ideal S1x2048 .f32) (ix2 (0 : Fin 1) k)) * (iblk m c 1 ⟨n, hn⟩ : Vec Ideal S2048x2048 .f32) (ix2 k q)
      = ∑ j : Fin 2048, term (m ((c : Thread nD τ).loc main_arg0)) (m ((c : Thread nD τ).loc main_arg1)) N (pos s j) := by
  refine Finset.sum_congr rfl fun k _ => ?_
  rw [Blocks.x_block_apply m c ⟨n, hn⟩ k (ix2 (0 : Fin 1) (pos s k)) rfl (by show 2048 * s.val + k.val = 2048 * (n % 4) + k.val; rw [hs]),
    Blocks.w_block_apply m c ⟨n, hn⟩ k q (ix2 (pos s k) N) (by show 2048 * s.val + k.val = 2048 * (n % 4) + k.val; rw [hs]) hN]
  rfl

/-- A fold's step count may be replaced by an equal one. -/
theorem accAt_steps {α : Type} {N : ℕ} (a : (n : ℕ) → n < N → α) (g : (n : ℕ) → n < N → α → α) (b j j' : ℕ) (h : b + j < N)
    (e : j = j') : Pipeline.accAt a g b j h = Pipeline.accAt a g b j' (e ▸ h) := by
  subst e; rfl

/-- The accumulator after the third step of a tile (point n with n mod 4 = 2), at offset q: the first three steps' sums from 0. -/
theorem acc_after_third (c : Dev nD) (n : ℕ) (hn : n < cfg0.N) (h2 : n % 4 = 2) (q : Fin 2048) (N : Fin 28672)
    (hN : N.val = 2048 * (n / 4) + q.val) :
    (outsAt0 m c n hn).2 (ix2 (0 : Fin 1) q)
      = ((0 + ∑ j : Fin 2048, term (m ((c : Thread nD τ).loc main_arg0)) (m ((c : Thread nD τ).loc main_arg1)) N (pos 0 j))
          + ∑ j : Fin 2048, term (m ((c : Thread nD τ).loc main_arg0)) (m ((c : Thread nD τ).loc main_arg1)) N (pos 1 j))
          + ∑ j : Fin 2048, term (m ((c : Thread nD τ).loc main_arg0)) (m ((c : Thread nD τ).loc main_arg1)) N (pos 2 j) := by
  have hN56 : cfg0.N = 56 := N_0
  have e := Value.soutsAt0_0_eq m c ⟨n, hn⟩
  dsimp only at e
  rw [e, accAt_steps _ _ _ _ 2 _ h2, Pipeline.accAt_succ, Pipeline.accAt_succ, Pipeline.accAt_zero]
  have hb0 : 4 * (n / 4) < cfg0.N := by omega
  have hb1 : 4 * (n / 4) + (0 + 1) < cfg0.N := by omega
  have hb2 : 4 * (n / 4) + (1 + 1) < cfg0.N := by omega
  rw [step_middle m c (4 * (n / 4) + (1 + 1)) hb2 _ (by omega) (by omega),
    step_middle m c (4 * (n / 4) + (0 + 1)) hb1 _ (by omega) (by omega),
    step_first m c (4 * (n / 4)) hb0 _ (by omega)]
  rw [Payload.partial_apply, Payload.partial_apply, Payload.partial_apply, Payload.zero_block_apply]
  rw [step_sum m c (4 * (n / 4)) hb0 0 (by show _ = 0; omega) q N (by rw [hN]; omega),
    step_sum m c (4 * (n / 4) + (0 + 1)) hb1 1 (by show _ = 1; omega) q N (by rw [hN]; omega),
    step_sum m c (4 * (n / 4) + (1 + 1)) hb2 2 (by show _ = 2; omega) q N (by rw [hN]; omega)]

end Cert.KernelIdeal.Accum

end
-- ==== Proof.Result.lean ====
/-
  The kernel's run, read: its result array is the specified function of the three argument arrays.

  Only the last reduction step of a column tile (grid point 4T + 3) writes the tile's block back, and what it writes at
  offset q is the accumulator after the third step plus the fourth step's sum plus the bias entry: column 2048·T + q of
  the specification. The 14 blocks written back tile the [1, 28672] result (column n lies in the block of point
  4·(n / 2048) + 3), so the array after the run is the specification at every index.
-/
import proofs.«114262_j79611513799417_2_alg».proof.Proof.Accum
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- The specified contents of the result array on core c. -/
abbrev out (c : Dev nD) : Buf (Elt Ideal) ((c : Thread nD τ).loc main_v1) :=
  Accum.result (m ((c : Thread nD τ).loc main_arg0)) (m ((c : Thread nD τ).loc main_arg1)) (m ((c : Thread nD τ).loc main_arg2))

/-- What a writing-back point writes is its block of the specification. -/
theorem flushed_eq (c : Dev nD) (t : Fin cfg0.N) (hf : (cfg0.win 3).flush t = true) :
    (dats m 0 c).flushed 3 t = ((cfg0.win 3).blk t).view.read (Elt Ideal) (out m c) := by
  have hN56 : cfg0.N = 56 := N_0
  have h3 : t.val % 4 = 3 := (flush0_3 t).mp hf
  have h0 : ¬t.val % 4 = 0 := by omega
  obtain ⟨-, -, -, -, -, -, e0, e1⟩ := Blocks.index_facts t
  rw [Value.flushed3_C m c t h0 h3, Leaves.last_out]
  obtain ⟨n, hn⟩ := t
  dsimp only at h3 h0 e0 e1 ⊢
  show (fun y : S1x2048.Idx => k0_pay3 (k0_pay2 (iblk m c 0 ⟨n, hn⟩) (outsAt0 m c (n - 1) _).2 (iblk m c 1 ⟨n, hn⟩)) (iblk m c 2 ⟨n, hn⟩) y)
    = fun y : S1x2048.Idx => out m c (((cfg0.win 3).blk ⟨n, hn⟩).view.emb y)
  funext y
  obtain ⟨u, q, rfl⟩ : ∃ (u : Fin 1) (q : Fin 2048), y = ix2 u q := ⟨y 0, y 1, eq_ix2 y⟩
  obtain rfl : u = 0 := Subsingleton.elim _ _
  have hq : q.val < 2048 := q.isLt
  have hn1 : n - 1 < cfg0.N := by omega
  have hNlt : 2048 * (n / 4) + q.val < 28672 := by omega
  rw [Payload.plus_bias_apply, Payload.partial_apply,
    Accum.acc_after_third m c (n - 1) hn1 (by omega) q ⟨2048 * (n / 4) + q.val, hNlt⟩ (by show 2048 * (n / 4) + q.val = 2048 * ((n - 1) / 4) + q.val; omega),
    Accum.step_sum m c n hn 3 (by show n % 4 = 3; exact h3) q ⟨2048 * (n / 4) + q.val, hNlt⟩ rfl,
    Blocks.b_block_apply m c ⟨n, hn⟩ q (ix1 ⟨2048 * (n / 4) + q.val, hNlt⟩) rfl]
  have hcol : (⟨(((cfg0.win 3).blk ⟨n, hn⟩).view.emb (ix2 (0 : Fin 1) q) 1).val, idx2_lt1 _⟩ : Fin 28672) = ⟨2048 * (n / 4) + q.val, hNlt⟩ :=
    Fin.ext (by show win0_3.index ⟨n, hn⟩ (1 : Fin 2) * 2048 + 1 * q.val = 2048 * (n / 4) + q.val; rw [e1]; omega)
  show _ = Accum.cell _ _ _ ⟨(((cfg0.win 3).blk ⟨n, hn⟩).view.emb (ix2 (0 : Fin 1) q) 1).val, idx2_lt1 _⟩
  rw [hcol]
  rfl

/-- Every column lies in the block some writing-back point writes. -/
theorem cover (i : S1x28672.Idx) : ∃ t : Fin cfg0.N, (cfg0.win 3).flush t = true ∧ i ∈ ((cfg0.win 3).blk t).view.set := by
  have hN56 : cfg0.N = 56 := N_0
  have hi0 : (i 0).val < 1 := idx2_lt0 i
  have hi1 : (i 1).val < 28672 := idx2_lt1 i
  have hb : 4 * ((i 1).val / 2048) + 3 < cfg0.N := by omega
  obtain ⟨-, -, -, -, -, -, e0, e1⟩ := Blocks.index_facts ⟨4 * ((i 1).val / 2048) + 3, hb⟩
  dsimp only at e0 e1
  refine ⟨⟨4 * ((i 1).val / 2048) + 3, hb⟩, (flush0_3 _).mpr (by show (4 * ((i 1).val / 2048) + 3) % 4 = 3; omega), ?_⟩
  show i ∈ ((View.whole main_v1).slice (win0_3.rect ⟨4 * ((i 1).val / 2048) + 3, hb⟩)).set
  rw [View.set_slice_whole, Rect.mem_set_unit]
  intro a
  match a with
  | ⟨0, _⟩ =>
    show win0_3.index ⟨4 * ((i 1).val / 2048) + 3, hb⟩ (0 : Fin 2) * 1 ≤ (i 0).val
      ∧ (i 0).val < win0_3.index ⟨4 * ((i 1).val / 2048) + 3, hb⟩ (0 : Fin 2) * 1 + 1
    rw [e0]; omega
  | ⟨1, _⟩ =>
    show win0_3.index ⟨4 * ((i 1).val / 2048) + 3, hb⟩ (1 : Fin 2) * 2048 ≤ (i 1).val
      ∧ (i 1).val < win0_3.index ⟨4 * ((i 1).val / 2048) + 3, hb⟩ (1 : Fin 2) * 2048 + 2048
    rw [e1]; omega

/-- After the run the result array holds the specification. -/
theorem final (c : Dev nD) : (dats m 0 c).arrAt 3 cfg0.N = out m c :=
  (dats m 0 c).arrAt_eq_of_cover 3 (out m c) (flushed_eq m c) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.Law.lean ====
/-
  The algebraic law that joins the two sides: a block decomposition of a long sum and the
  masked matrix-vector identity over the extended reals with real entries.
-/
import Mathlib

open scoped BigOperators

namespace Cert.Law

/-- index k = 2048*s + j of the s-th of four consecutive blocks of length 2048 -/
def blk (s : Fin 4) (j : Fin 2048) : Fin 8192 :=
  ⟨2048 * s.val + j.val, by have := s.isLt; have := j.isLt; omega⟩

/-- a sum over 8192 terms, reindexed by (block, offset) -/
theorem sum_eq_sum_blk (f : Fin 8192 → EReal) :
    ∑ k : Fin 8192, f k = ∑ q : Fin 4 × Fin 2048, f (blk q.1 q.2) := by
  symm
  apply Fintype.sum_equiv (finProdFinEquiv : Fin 4 × Fin 2048 ≃ Fin (4 * 2048))
  intro q
  congr 1
  apply Fin.ext
  simp only [blk, finProdFinEquiv_apply_val]
  omega

/-- a sum over 8192 terms is the left-nested chain of its four block sums started from 0
(no finiteness needed: EReal is an additive commutative monoid) -/
theorem sum_blocks4 (f : Fin 8192 → EReal) :
    ((((0 + ∑ j : Fin 2048, f (blk 0 j)) + ∑ j : Fin 2048, f (blk 1 j))
        + ∑ j : Fin 2048, f (blk 2 j)) + ∑ j : Fin 2048, f (blk 3 j))
      = ∑ k : Fin 8192, f k := by
  rw [sum_eq_sum_blk, Fintype.sum_prod_type, Fin.sum_univ_four, zero_add]

/-- the coercion of the reals into the extended reals commutes with finite sums -/
theorem coe_sum {ι : Type*} (s : Finset ι) (r : ι → ℝ) :
    ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-- the masked matrix-vector identity in the reals: subtracting the constant m on the masked
entries and adding back m times the full column sum equals replacing unmasked entries by m -/
theorem masked_gemv_real {ι : Type*} [Fintype ι] (x w : ι → ℝ) (b m : ℝ)
    (p : ι → Prop) [DecidablePred p] :
    (∑ k, (if p k then x k - m else 0) * w k) + (b + m * ∑ k, w k)
      = (∑ k, (if p k then x k else m) * w k) + b := by
  have h : (∑ k, (if p k then x k - m else 0) * w k) + m * ∑ k, w k
      = ∑ k, (if p k then x k else m) * w k := by
    rw [Finset.mul_sum, ← Finset.sum_add_distrib]
    apply Finset.sum_congr rfl
    intro k _
    split_ifs <;> ring
  linarith

/-- the masked matrix-vector identity on the extended reals, all entries real -/
theorem masked_gemv {ι : Type*} [Fintype ι] (x w : ι → EReal) (b μ : EReal) (p : ι → Prop)
    [DecidablePred p]
    (hx : ∀ k, ∃ r : ℝ, x k = (r : EReal)) (hw : ∀ k, ∃ r : ℝ, w k = (r : EReal))
    (hb : ∃ r : ℝ, b = (r : EReal)) (hμ : ∃ r : ℝ, μ = (r : EReal)) :
    (∑ k, (if p k then x k - μ else 0) * w k) + (b + μ * (0 + ∑ k, w k))
      = (∑ k, (if p k then x k else μ) * w k) + b := by
  choose xr hxr using hx
  choose wr hwr using hw
  obtain ⟨br, rfl⟩ := hb
  obtain ⟨mr, rfl⟩ := hμ
  -- every summand is the coercion of a real number
  have e1 : ∀ k, (if p k then x k - (mr : EReal) else 0) * w k
      = (((if p k then xr k - mr else 0) * wr k : ℝ) : EReal) := by
    intro k
    rw [hxr k, hwr k]
    split_ifs
    · rw [EReal.coe_mul, EReal.coe_sub]
    · rw [EReal.coe_mul, EReal.coe_zero]
  have e2 : ∀ k, (if p k then x k else (mr : EReal)) * w k
      = (((if p k then xr k else mr) * wr k : ℝ) : EReal) := by
    intro k
    rw [hxr k, hwr k]
    split_ifs <;> rw [EReal.coe_mul]
  have e3 : ∀ k, w k = ((wr k : ℝ) : EReal) := hwr
  -- so both sides are coercions of real numbers, equal by the real identity
  rw [Finset.sum_congr rfl (fun k _ => e1 k), Finset.sum_congr rfl (fun k _ => e2 k),
    Finset.sum_congr rfl (fun k _ => e3 k), zero_add,
    ← coe_sum, ← coe_sum, ← coe_sum, ← EReal.coe_mul, ← EReal.coe_add, ← EReal.coe_add,
    ← EReal.coe_add, masked_gemv_real]

end Cert.Law
-- ==== Proof.Ref.lean ====
/-
  The reference's result read at one column, on the extended reals.

  Write μ for the real the mode word denotes and θ for the one the threshold word denotes. The reference subtracts μ
  from every entry of the input row, keeps the difference where |x − μ| > θ and puts 0 elsewhere, multiplies the row
  into the weight matrix, and adds bias + μ · (column sum of the weights). At column n:

      Σ_k (far (x k) ? x k − μ : 0) · W k n  +  (b n + μ · (0 + Σ_k W k n))

  The matrix product reads its left operand at (0, k) and its right at (k, n); the column sum reads the weights at (k, n);
  the broadcast of the length-28672 vector to the [1, 28672] row reads it at n.
-/
import proofs.«114262_j79611513799417_2_alg».proof.Proof.Gen.ReferenceIdeal.Read
import proofs.«114262_j79611513799417_2_alg».proof.Proof.Payload
import Idealize.ShloMosaic.Lib.ValueIdx
import Idealize.ShloMosaic.PureOps.Ideal.Laws

open Idealize.ShloMosaic Idealize.ShloMosaic.TcCoe Idealize.SL.Sem

namespace Cert.ReferenceIdeal.AtIndex

open Cert.ReferenceIdeal Cert.ReferenceIdeal.Read Idealize.ShloMosaic.ValueIdx
open Cert.KernelIdeal.Payload (mode thr farBit)

/-- the matrix product's left operand index at output (0, n), contraction k, is (0, k) -/
theorem lidx_at (n : Fin 28672) (k : Fin 8192) :
    lidx_main_v10 (ix2 (0 : Fin 1) n) k = ix2 (0 : Fin 1) k :=
  funext fun a => Fin.ext (by match a with | ⟨0, _⟩ => rfl | ⟨1, _⟩ => rfl)

/-- the matrix product's right operand index at output (0, n), contraction k, is (k, n) -/
theorem ridx_at (n : Fin 28672) (k : Fin 8192) :
    ridx_main_v10 (ix2 (0 : Fin 1) n) k = ix2 k n :=
  funext fun a => Fin.ext (by match a with | ⟨0, _⟩ => rfl | ⟨1, _⟩ => rfl)

/-- the broadcast along the leading unit axis reads the vector at n -/
theorem idx11_at (n : Fin 28672) : idx_main_v11 (ix2 (0 : Fin 1) n) = ix1 n :=
  funext fun a => Fin.ext (by match a with | ⟨0, _⟩ => rfl)

/-- the column sum at n reads the weights at (k, n) -/
theorem idx0_at (n : Fin 28672) (k : Fin 8192) : idx_main_v0 (ix1 n) k = ix2 k n :=
  funext fun a => Fin.ext (by match a with | ⟨0, _⟩ => rfl | ⟨1, _⟩ => rfl)

/-- the masked, shifted row entry: x − μ where x is far from μ, else 0 -/
theorem v9_at (x0 : (⟨Cert.ReferenceIdeal.S1x8192, .f32⟩ : BufTy).Contents (Elt Ideal)) (k : Fin 8192) :
    val_main_v9 (F := Ideal) x0 (ix2 (0 : Fin 1) k)
      = if farBit (x0 (ix2 (0 : Fin 1) k)) = 1 then x0 (ix2 (0 : Fin 1) k) - mode else 0 := by
  rw [val_main_v9_apply, val_main_v8_apply, val_main_v6_apply, val_main_v5_apply, val_main_v4_apply,
    val_main_v7_apply, val_main_call0_v1_apply, val_main_call0_v0_apply, val_main_cst_1_apply,
    val_main_cst_2_apply, val_main_cst_3_apply]
  simp only [Ideal.ofBits_def, Ideal.ofBits_zero_f32, Ideal.hostAbsf_def, Ideal.subf_def]
  rfl

/-- bias + μ · (0 + column sum) at column n -/
theorem v3_at (x1 : (⟨Cert.ReferenceIdeal.S8192x28672, .f32⟩ : BufTy).Contents (Elt Ideal))
    (x2 : (⟨Cert.ReferenceIdeal.S28672, .f32⟩ : BufTy).Contents (Elt Ideal)) (n : Fin 28672) :
    val_main_v3 (F := Ideal) x1 x2 (ix1 n)
      = x2 (ix1 n) + mode * (0 + ∑ k : Fin 8192, x1 (ix2 k n)) := by
  rw [val_main_v3_apply, val_main_v2_apply, val_main_v1_apply, val_main_v0_apply, val_main_cst_0_apply,
    val_main_cst_apply]
  simp only [idx0_at, Ideal.ofBits_def, Ideal.ofBits_zero_f32, Ideal.addf_def, Ideal.mulf_def]

/-- the reference's result at column n -/
theorem out_apply (x0 : (⟨Cert.ReferenceIdeal.S1x8192, .f32⟩ : BufTy).Contents (Elt Ideal))
    (x1 : (⟨Cert.ReferenceIdeal.S8192x28672, .f32⟩ : BufTy).Contents (Elt Ideal))
    (x2 : (⟨Cert.ReferenceIdeal.S28672, .f32⟩ : BufTy).Contents (Elt Ideal)) (n : Fin 28672) :
    Cert.ReferenceIdeal.Read.val_main_v12 (F := Ideal) x0 x1 x2 (ix2 (0 : Fin 1) n)
      = (∑ k : Fin 8192, (if farBit (x0 (ix2 (0 : Fin 1) k)) = 1 then x0 (ix2 (0 : Fin 1) k) - mode else 0)
            * x1 (ix2 k n))
        + (x2 (ix1 n) + mode * (0 + ∑ k : Fin 8192, x1 (ix2 k n))) := by
  rw [val_main_v12_apply, val_main_v10_apply, val_main_v11_apply, idx11_at, v3_at, Ideal.addf_def]
  simp only [lidx_at, ridx_at, v9_at]

end Cert.ReferenceIdeal.AtIndex
-- ==== Proof.Bridge.lean ====
/-
  The two sides are one function of the arguments, when every entry is a real number.

  At column n the kernel's specification is (((0 + P₀) + P₁) + P₂) + P₃ + bias n with Pₛ the s-th quarter of
  Σ_k eff (x k) · W (k, n); on the extended reals addition is commutative and associative, so this is the whole sum plus
  the bias. The reference computes Σ_k sp (x k) · W (k, n) + (bias n + μ · (0 + Σ_k W (k, n))) with sp x = x − μ where x is
  kept and 0 elsewhere. Since eff x = sp x + μ on the reals and μ distributes over the finite sum of real entries, the two
  agree; distributivity is where finiteness of the inputs and of μ is used.
-/
import proofs.«114262_j79611513799417_2_alg».proof.Proof.Accum
import proofs.«114262_j79611513799417_2_alg».proof.Proof.Law
import proofs.«114262_j79611513799417_2_alg».proof.Proof.Ref
import Idealize.ShloMosaic.Lib.ValueIdx

noncomputable section

open Idealize.ShloMosaic Idealize.ShloMosaic.TcCoe Idealize.SL.Sem
open Idealize.ShloMosaic.Pipeline (Dat)

namespace Cert.Bridge

open Idealize.ShloMosaic.ValueIdx
open Cert.KernelIdeal.Payload (mode farBit eff)
open Cert.KernelIdeal.Accum (pos term cell result)

/-- The kernel's specification is the reference's composed term, on real entries. -/
theorem result_eq_ref (x : Cert.KernelIdeal.S1x8192.Idx → EReal) (W : Cert.KernelIdeal.S8192x28672.Idx → EReal)
    (b : Cert.KernelIdeal.S28672.Idx → EReal)
    (hx : ∀ i, ∃ r : ℝ, x i = (r : EReal)) (hW : ∀ i, ∃ r : ℝ, W i = (r : EReal)) (hb : ∀ i, ∃ r : ℝ, b i = (r : EReal)) :
    result x W b = Cert.ReferenceIdeal.Read.val_main_v12 (F := Ideal) x W b := by
  funext i
  obtain ⟨u, n, rfl⟩ : ∃ (u : Fin 1) (n : Fin 28672), i = ix2 u n := ⟨i 0, i 1, eq_ix2 i⟩
  obtain rfl : u = 0 := Subsingleton.elim _ _
  rw [Cert.ReferenceIdeal.AtIndex.out_apply]
  show ((((0 + ∑ j : Fin 2048, term x W n (Cert.Law.blk 0 j)) + ∑ j : Fin 2048, term x W n (Cert.Law.blk 1 j))
      + ∑ j : Fin 2048, term x W n (Cert.Law.blk 2 j)) + ∑ j : Fin 2048, term x W n (Cert.Law.blk 3 j)) + b (ix1 n) = _
  rw [Cert.Law.sum_blocks4 (term x W n)]
  exact (Cert.Law.masked_gemv (fun k : Fin 8192 => x (ix2 (0 : Fin 1) k)) (fun k : Fin 8192 => W (ix2 k n)) (b (ix1 n)) mode
    (fun k : Fin 8192 => farBit (x (ix2 (0 : Fin 1) k)) = 1) (fun k => hx _) (fun k => hW _) (hb _)
    Cert.KernelIdeal.Payload.mode_real).symm

end Cert.Bridge

end
-- ==== Proof.Finite.lean ====
/-
  From the precondition to "every input entry is a real number".

  The precondition says, per argument array a, that the conjunction over all indices i of
  |a i| < +∞ holds, and that the three conjunctions hold together. Over the extended reals
  |x| = max x (-x), and max x (-x) < ⊤ excludes exactly x = ⊤ and x = ⊥; what is left is a real.
-/
import proofs.«114262_j79611513799417_2_alg».proof.Defs
import proofs.«114262_j79611513799417_2_alg».proof.Proof.Gen.Pre_finite_inputs
import Idealize.ShloMosaic.Lib.ReduceAll
import Idealize.ShloMosaic.PureOps.Ideal

namespace Cert.Finite

open Idealize.ShloMosaic Idealize.SL.Sem

/-- The pattern with all exponent bits set and no fraction bit denotes +∞. -/
theorem ofBits_inf : Ideal.ofBits .f32 0x7F800000#32 = (⊤ : EReal) := rfl

/-- An extended real x with max x (-x) < ⊤ is neither ⊤ nor ⊥: it is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A strict comparison that answered 1 holds. -/
theorem lt_of_cmp_olt {x y : EReal} (h : Ideal.cmp .olt x y = 1#1) : x < y := by
  have hb : ∀ b : Bool, BitVec.ofBool b = 1#1 → b = true := by decide
  have h' : BitVec.ofBool (decide (x < y)) = 1#1 := h
  exact of_decide_eq_true (hb _ h')

/-- One entry: |x| < +∞, as the precondition spells it, makes x a real number. -/
theorem real_of_entry (x : EReal)
    (h : Ideal.cmp .olt (max x (-x)) (Ideal.ofBits .f32 0x7F800000#32) = 1#1) : ∃ r : ℝ, x = (r : EReal) := by
  rw [ofBits_inf] at h
  exact real_of_abs_lt_top x (lt_of_cmp_olt h)

instance : Subsingleton Cert.Pre_finite_inputs.S_.Idx := ⟨fun a b => funext fun d => d.elim0⟩

section
variable [Cert.Pre_finite_inputs.Facts]
open Cert.Pre_finite_inputs

/-- The index of the rank-0 result. -/
abbrev j0 : S_.Idx := fun d => d.elim0

/-- An entry of a comparison against the broadcast constant, read at an index. -/
theorem real_of_cmpf {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) :=
  real_of_entry (a i) h

/-- The three conjuncts of the precondition, each a reduction by and over all axes. -/
theorem split (a0 : FVec Ideal S1x8192 .f32) (a1 : FVec Ideal S8192x28672 .f32) (a2 : FVec Ideal S28672 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 : IntOp.andi (IntOp.andi _ _) _ = 1#1 := congrFun h j0
  obtain ⟨h01, h2⟩ := IntOp.andi_eq_one.1 h0
  obtain ⟨h0', h1⟩ := IntOp.andi_eq_one.1 h01
  refine ⟨fun i => ?_, fun i => ?_, fun i => ?_⟩
  · exact real_of_cmpf a0 _ i (Host.reduce_andi_all _ _ _ _ j0 h0' i)
  · exact real_of_cmpf a1 _ i (Host.reduce_andi_all _ _ _ _ j0 h1 i)
  · exact real_of_cmpf a2 _ i (Host.reduce_andi_all _ _ _ _ j0 h2 i)

end

/-- Under the precondition every entry of the three argument arrays is a real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal)) :=
  split _ _ _ (h c)

end Cert.Finite
-- ==== Proof.lean ====
/-
  The certificate of a masked matrix–vector product with bias, against its jnp reference, on the extended reals.

  The kernel computes out[n] = Σ_i eff(x_i) · W[i, n] + bias[n], where eff(x) = x when |x − μ| > θ and μ otherwise
  (μ, θ the reals the words 0x3DB851EC and 0x3DCCCCCD denote), accumulating the sum over four blocks of 2048 rows of W
  per column tile. The reference computes Σ_i sp(x_i) · W[i, n] + (bias[n] + μ · Σ_i W[i, n]) with sp(x) = x − μ where
  |x − μ| > θ and 0 otherwise. For real inputs eff(x) = sp(x) + μ and μ distributes over the column sum, so the two
  results are equal, index by index.

  The three frames: the two kernel programs' are their frame runs; the reference's is its run with the result dropped.
  The idealization rewrote nothing, so there is nothing to preserve.
  The algebraic claim: the idealized kernel's run ends with its result array at the specification (Result.run), the
  reference's run ends at its composed term of arguments that agree, and the two are one function when every entry is
  real (Bridge.result_eq_ref), which the precondition gives (Finite.args_real).
-/
import proofs.«114262_j79611513799417_2_alg».proof.Defs
import proofs.«114262_j79611513799417_2_alg».proof.Proof.Gen.Kernel
import proofs.«114262_j79611513799417_2_alg».proof.Proof.Gen.Kernel.Frame
import proofs.«114262_j79611513799417_2_alg».proof.Proof.Gen.KernelIdeal
import proofs.«114262_j79611513799417_2_alg».proof.Proof.Gen.KernelIdeal.Frame
import proofs.«114262_j79611513799417_2_alg».proof.Proof.Gen.KernelIdeal.Value
import proofs.«114262_j79611513799417_2_alg».proof.Proof.Gen.ReferenceIdeal
import proofs.«114262_j79611513799417_2_alg».proof.Proof.Gen.ReferenceIdeal.Run
import proofs.«114262_j79611513799417_2_alg».proof.Proof.Gen.ReferenceIdeal.Read
import proofs.«114262_j79611513799417_2_alg».proof.Proof.Gen.Pre_finite_inputs
import proofs.«114262_j79611513799417_2_alg».proof.Proof.Result
import proofs.«114262_j79611513799417_2_alg».proof.Proof.Bridge
import proofs.«114262_j79611513799417_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, with equal results: the kernel's at the specification, the reference's at its term of arguments that
    agree, and on real entries these are one function. -/
theorem algebraic : Cert.algebraic_KernelIdeal_ReferenceIdeal := by
  intro m ρ m' ρ' hpre hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hb⟩ := Cert.Finite.args_real m hpre c
  rw [Cert.ReferenceIdeal.Read.val_main_v12_eq, (hagree c).1, (hagree c).2.1, (hagree c).2.2]
  exact (Cert.Bridge.result_eq_ref _ _ _ hx hW hb).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
